-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x2049 : Shape := ⟨3, ![16384, 2, 2049]⟩
abbrev S1024x2049 : Shape := ⟨2, ![1024, 2049]⟩
abbrev S_ : Shape := ⟨0, ![]⟩

class Facts : Prop where
  bcast_S_S16384x2x2049 : S_.BroadcastsInDim S16384x2x2049 (![] : Fin 0 → Fin S16384x2x2049.rank)
  reducesTo_S16384x2x2049_S_d0_1_2 : S16384x2x2049.ReducesTo [0, 1, 2] S_
  h_S_ : 0 < S_.numel
  bcast_S_S1024x2049 : S_.BroadcastsInDim S1024x2049 (![] : Fin 0 → Fin S1024x2049.rank)
  reducesTo_S1024x2049_S_d0_1 : S1024x2049.ReducesTo [0, 1] S_

variable [Facts]

def fn {F : FTy → Type} [FloatOps F] (main_arg0 : FVec F S16384x2x2049 .f32) (main_arg1 : FVec F S1024x2049 .f32) (main_arg2 : FVec F S1024x2049 .f32) : IVec S_ 1 :=
  let main_v0 : FVec F S16384x2x2049 .f32 := Host.absf main_arg0
  let main_cst : FVec F S_ .f32 := constant S_ .f32 0x7F800000#32
  let main_v1 : FVec F S16384x2x2049 .f32 := broadcastInDim S16384x2x2049 ![] bcast_S_S16384x2x2049 main_cst
  let main_v2 : IVec S16384x2x2049 1 := cmpf .olt main_v0 main_v1
  let main_c : IVec S_ 1 := constantI S_ 1 1#1
  let main_v3 : IVec S_ 1 := (fun x v => Host.reduce IntOp.andi x v reducesTo_S16384x2x2049_S_d0_1_2 h_S_) main_v2 main_c
  let main_v4 : FVec F S1024x2049 .f32 := Host.absf main_arg1
  let main_cst_0 : FVec F S_ .f32 := constant S_ .f32 0x7F800000#32
  let main_v5 : FVec F S1024x2049 .f32 := broadcastInDim S1024x2049 ![] bcast_S_S1024x2049 main_cst_0
  let main_v6 : IVec S1024x2049 1 := cmpf .olt main_v4 main_v5
  let main_c_1 : IVec S_ 1 := constantI S_ 1 1#1
  let main_v7 : IVec S_ 1 := (fun x v => Host.reduce IntOp.andi x v reducesTo_S1024x2049_S_d0_1 h_S_) main_v6 main_c_1
  let main_v8 : IVec S_ 1 := andi main_v3 main_v7
  let main_v9 : FVec F S1024x2049 .f32 := Host.absf main_arg2
  let main_cst_2 : FVec F S_ .f32 := constant S_ .f32 0x7F800000#32
  let main_v10 : FVec F S1024x2049 .f32 := broadcastInDim S1024x2049 ![] bcast_S_S1024x2049 main_cst_2
  let main_v11 : IVec S1024x2049 1 := cmpf .olt main_v9 main_v10
  let main_c_3 : IVec S_ 1 := constantI S_ 1 1#1
  let main_v12 : IVec S_ 1 := (fun x v => Host.reduce IntOp.andi x v reducesTo_S1024x2049_S_d0_1 h_S_) main_v11 main_c_3
  let main_v13 : IVec S_ 1 := andi main_v8 main_v12
  main_v13
-- ==== Kernel.lean ====
abbrev S16384x2x2049 : Shape := ⟨3, ![16384, 2, 2049]⟩
abbrev S1024x2049 : Shape := ⟨2, ![1024, 2049]⟩
abbrev S16384x4098 : Shape := ⟨2, ![16384, 4098]⟩
abbrev S1024x4098 : Shape := ⟨2, ![1024, 4098]⟩
abbrev S16384x1024 : Shape := ⟨2, ![16384, 1024]⟩
abbrev S512x4098 : Shape := ⟨2, ![512, 4098]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S16384x2x2049, .f32⟩
  | .hbm, ⟨1, _⟩ => ⟨S1024x2049, .f32⟩
  | .hbm, ⟨2, _⟩ => ⟨S1024x2049, .f32⟩
  | .hbm, ⟨3, _⟩ => ⟨S16384x4098, .f32⟩
  | .hbm, ⟨4, _⟩ => ⟨S1024x2049, .f32⟩
  | .hbm, ⟨5, _⟩ => ⟨S1024x2049, .f32⟩
  | .hbm, ⟨6, _⟩ => ⟨S1024x4098, .f32⟩
  | .hbm, ⟨7, _⟩ => ⟨S1024x4098, .bf16⟩
  | .hbm, ⟨8, _⟩ => ⟨S16384x1024, .f32⟩
  | .local _ .vmem, ⟨0, _⟩ => ⟨S512x4098, .f32⟩
  | .local _ .vmem, ⟨1, _⟩ => ⟨S512x4098, .f32⟩
  | .local _ .vmem, ⟨2, _⟩ => ⟨S1024x4098, .bf16⟩
  | .local _ .vmem, ⟨3, _⟩ => ⟨S512x1024, .f32⟩
  | .local _ .vmem, ⟨4, _⟩ => ⟨S512x1024, .f32⟩
  | _, _ => ⟨S16384x2x2049, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4098 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4098 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x2x2049_S16384x4098 : S16384x2x2049.ShapeCasts S16384x4098
  concatenates_S1024x2049_S1024x2049_S1024x4098_d1 : Shape.Concatenates [S1024x2049, S1024x2049] S1024x4098 1
  bitsLt_bf16_f32 : FTy.bits .bf16 < FTy.bits .f32
  inb_S512x4098_S512x4098_0_0 : ∀ a, (![0, 0] : Fin 2 → Nat) a + S512x4098.size a ≤ S512x4098.size a
  h_S512x4098 : 0 < S512x4098.numel
  shapeCasts_S512x4098_S512x4098 : S512x4098.ShapeCasts S512x4098
  inb_S1024x4098_S1024x4098_0_0 : ∀ a, (![0, 0] : Fin 2 → Nat) a + S1024x4098.size a ≤ S1024x4098.size a
  h_S1024x4098 : 0 < S1024x4098.numel
  shapeCasts_S1024x4098_S1024x4098 : S1024x4098.ShapeCasts S1024x4098
  inb_S512x1024_S512x1024_0_0 : ∀ a, (![0, 0] : Fin 2 → Nat) a + S512x1024.size a ≤ S512x1024.size a
  h_S512x1024 : 0 < S512x1024.numel
  dot_S512x4098_S1024x4098_S512x1024_1_1_0_0_n_n_wf : DotDims.WF S512x4098 S1024x4098 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4098.size a ≤ S16384x4098.size a
  hwx0_0 : ∀ i : grid0.Coords, EltTy.bits .f32 = 32 ∨ (Rect.block (s := S16384x4098) S512x4098.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4098.size a ≤ S1024x4098.size a
  hwx0_1 : ∀ i : grid0.Coords, EltTy.bits .bf16 = 32 ∨ (Rect.block (s := S1024x4098) S1024x4098.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x4098_S1024x4098_S512x1024_1_1_0_0_n_n : DotDims S512x4098 S1024x4098 S512x1024 where
  lhsContracting := [1]
  rhsContracting := [1]
  lhsNonContracting := [0]
  rhsNonContracting := [0]
  lhsBatch := []
  rhsBatch := []
  wf := dot_S512x4098_S1024x4098_S512x1024_1_1_0_0_n_n_wf

abbrev win0_0 : Pipeline.Window sig grid0 :=
  Pipeline.Window.ofSpec (Memref.whole main_v0) S512x4098.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x4098.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2x2049 : Shape := ⟨3, ![16384, 2, 2049]⟩
abbrev S1024x2049 : Shape := ⟨2, ![1024, 2049]⟩
abbrev S16384x1x2049 : Shape := ⟨3, ![16384, 1, 2049]⟩
abbrev S16384x2049 : Shape := ⟨2, ![16384, 2049]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2x2049, .f32⟩
  | .hbm, ⟨1, _⟩ => ⟨S1024x2049, .f32⟩
  | .hbm, ⟨2, _⟩ => ⟨S1024x2049, .f32⟩
  | .hbm, ⟨3, _⟩ => ⟨S16384x1x2049, .f32⟩
  | .hbm, ⟨4, _⟩ => ⟨S16384x2049, .f32⟩
  | .hbm, ⟨5, _⟩ => ⟨S16384x1x2049, .f32⟩
  | .hbm, ⟨6, _⟩ => ⟨S16384x2049, .f32⟩
  | .hbm, ⟨7, _⟩ => ⟨S1024x2049, .f32⟩
  | .hbm, ⟨8, _⟩ => ⟨S1024x2049, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x2x2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S16384x2x2049_S16384x1x2049_0_0_0 : S16384x2x2049.Slices ![0, 0, 0] S16384x1x2049
  shapeCasts_S16384x1x2049_S16384x2049 : S16384x1x2049.ShapeCasts S16384x2049
  slices_S16384x2x2049_S16384x1x2049_0_1_0 : S16384x2x2049.Slices ![0, 1, 0] S16384x1x2049
  dot_S16384x2049_S1024x2049_S16384x1024_1_1_0_0_n_n_wf : DotDims.WF S16384x2049 S1024x2049 S16384x1024 [1] [1] [0] [0] [] []

variable [Facts₀]

def dot_S16384x2049_S1024x2049_S16384x1024_1_1_0_0_n_n : DotDims S16384x2049 S1024x2049 S16384x1024 where
  lhsContracting := [1]
  rhsContracting := [1]
  lhsNonContracting := [0]
  rhsNonContracting := [0]
  lhsBatch := []
  rhsBatch := []
  wf := dot_S16384x2049_S1024x2049_S16384x1024_1_1_0_0_n_n_wf

class Facts : Prop extends Facts₀ where

variable [Facts]
-- ==== Proof.HalvesSum.lean ====
/-
  The result both programs compute, and the law that joins their two arrangements of it.

  For a batch row `b` and an output row `o`, with `f` ranging over the 2049 frequencies,
    E[b, o] = Σ_f x[b, 0, f] · (r[o, f] + s[o, f])  +  Σ_f x[b, 1, f] · (r[o, f] - s[o, f]).
  One program computes the two sums as written and adds them. The other lays the two channels of `x` side by side
  along ONE axis of length 4098 = 2049 + 2049 (entry `k` is channel 0 at `k` for `k < 2049` and channel 1 at
  `k - 2049` otherwise), lays `r + s` and `r - s` side by side in the same way, and takes one sum over the long axis.
  A sum over `Fin (n + n)` is the sum over its first half plus the sum over its second half: nothing but the
  commutativity and associativity of addition is used, so the law holds on the extended reals for ALL entries, the
  infinite ones included, and no finiteness assumption enters.
-/
import Idealize.ShloMosaic.PureOps.Ideal
import Idealize.ShloMosaic.Lib.ValueIdx

noncomputable section

namespace Cert.Energies

open Idealize.ShloMosaic Idealize.ShloMosaic.ValueIdx

/-- The result at `(b, o)`: channel 0 of row `b` against row `o` of `r + s`, plus channel 1 of row `b` against row
    `o` of `r - s`, each summed over the 2049 frequencies. -/
def energies (x : FVec Ideal ⟨3, ![16384, 2, 2049]⟩ .f32) (r s : FVec Ideal ⟨2, ![1024, 2049]⟩ .f32) :
    FVec Ideal ⟨2, ![16384, 1024]⟩ .f32 := fun i =>
  (∑ f : Fin 2049, x (ix3 (i 0) 0 f) * (r (ix2 (i 1) f) + s (ix2 (i 1) f)))
    + ∑ f : Fin 2049, x (ix3 (i 0) 1 f) * (r (ix2 (i 1) f) - s (ix2 (i 1) f))

/-- THE LAW. Let `X` be `x` with its two channels side by side along an axis of length 4098, and `W` be `r + s` and
    `r - s` side by side along an axis of length 4098. Then the single sum over the long axis of `X[b, k] · W[o, k]` is
    `energies` at `(b, o)`: the long sum is its first 2049 terms plus its last 2049 terms. -/
theorem long_sum_eq (x : FVec Ideal ⟨3, ![16384, 2, 2049]⟩ .f32) (r s : FVec Ideal ⟨2, ![1024, 2049]⟩ .f32)
    (X : FVec Ideal ⟨2, ![16384, 4098]⟩ .f32) (W : FVec Ideal ⟨2, ![1024, 4098]⟩ .bf16)
    (hX0 : ∀ (b : Fin 16384) (k : Fin 4098) (f : Fin 2049), k.val = f.val → X (ix2 b k) = x (ix3 b 0 f))
    (hX1 : ∀ (b : Fin 16384) (k : Fin 4098) (f : Fin 2049), k.val = 2049 + f.val → X (ix2 b k) = x (ix3 b 1 f))
    (hW0 : ∀ (o : Fin 1024) (k : Fin 4098) (f : Fin 2049), k.val = f.val → W (ix2 o k) = r (ix2 o f) + s (ix2 o f))
    (hW1 : ∀ (o : Fin 1024) (k : Fin 4098) (f : Fin 2049), k.val = 2049 + f.val → W (ix2 o k) = r (ix2 o f) - s (ix2 o f))
    (i : (⟨2, ![16384, 1024]⟩ : Shape).Idx) :
    ∑ k : Fin 4098, X (ix2 (i 0) k) * W (ix2 (i 1) k) = energies x r s i := by
  unfold energies
  refine (Fin.sum_univ_add (M := EReal) (a := 2049) (b := 2049)
    (fun k : Fin (2049 + 2049) => X (ix2 (i 0) k) * W (ix2 (i 1) k))).trans ?_
  congr 1
  · refine Finset.sum_congr rfl fun f _ => ?_
    rw [hX0 (i 0) (Fin.castAdd 2049 f) f rfl, hW0 (i 1) (Fin.castAdd 2049 f) f rfl]
  · refine Finset.sum_congr rfl fun f _ => ?_
    rw [hX1 (i 0) (Fin.natAdd 2049 f) f rfl, hW1 (i 1) (Fin.natAdd 2049 f) f rfl]

end Cert.Energies

end
-- ==== Proof.RefEnergies.lean ====
/-
  The reference's result is `energies` of its arguments.

  The reference slices channel 0 and channel 1 out of `x`, drops the unit axis, forms `r + s` and `r - s`, multiplies
  each channel by the transpose of its weight matrix and adds the two products. Read at an index `(b, o)` each product
  is a sum over the 2049 frequencies; the slice and the reshape only rename the index: entry `(b, f)` of channel `c`
  is `x[b, c, f]`, because `(b · 2049 + f) / 2049 = b` and `(b · 2049 + f) % 2049 = f` for `f < 2049`.
-/
import proofs.«114108_j86904368267649_2_alg».proof.Proof.Gen.ReferenceIdeal.Read
import proofs.«114108_j86904368267649_2_alg».proof.Proof.HalvesSum

noncomputable section

namespace Cert.ReferenceIdeal.RefValue

open Cert.ReferenceIdeal Cert.ReferenceIdeal.Read Idealize.ShloMosaic Idealize.ShloMosaic.ValueIdx

/-- Channel 0's slice, reshaped, at `(b, f)` is `x[b, 0, f]`. -/
theorem idx_channel0 (i : S16384x1024.Idx) (f : Fin 2049) :
    idx_main_v0 (idx_main_v1 (lidx_main_v6 i f)) = ix3 (i 0) 0 f := by
  have hf : f.val < 2049 := f.isLt
  funext a; apply Fin.ext
  match a with
  | ⟨0, _⟩ => show ((i 0).val * 2049 + f.val) / 2049 = (i 0).val; omega
  | ⟨1, _⟩ => rfl
  | ⟨2, _⟩ => show ((i 0).val * 2049 + f.val) % 2049 = f.val; omega

/-- Channel 1's slice, reshaped, at `(b, f)` is `x[b, 1, f]`. -/
theorem idx_channel1 (i : S16384x1024.Idx) (f : Fin 2049) :
    idx_main_v2 (idx_main_v3 (lidx_main_v7 i f)) = ix3 (i 0) 1 f := by
  have hf : f.val < 2049 := f.isLt
  funext a; apply Fin.ext
  match a with
  | ⟨0, _⟩ => show ((i 0).val * 2049 + f.val) / 2049 = (i 0).val; omega
  | ⟨1, _⟩ => rfl
  | ⟨2, _⟩ => show ((i 0).val * 2049 + f.val) % 2049 = f.val; omega

/-- The weight matrices are read at `(o, f)`. -/
theorem idx_weight0 (i : S16384x1024.Idx) (f : Fin 2049) : ridx_main_v6 i f = ix2 (i 1) f :=
  funext fun a => Fin.ext (by match a with | ⟨0, _⟩ => rfl | ⟨1, _⟩ => rfl)

theorem idx_weight1 (i : S16384x1024.Idx) (f : Fin 2049) : ridx_main_v7 i f = ix2 (i 1) f :=
  funext fun a => Fin.ext (by match a with | ⟨0, _⟩ => rfl | ⟨1, _⟩ => rfl)

/-- The reference's result array is `energies` of the argument arrays. -/
theorem result_eq (x : FVec Ideal S16384x2x2049 .f32) (r s : FVec Ideal S1024x2049 .f32) :
    val_main_v8 (F := Ideal) x r s = Cert.Energies.energies x r s := by
  funext i
  rw [val_main_v8_apply, val_main_v6_apply, val_main_v7_apply]
  simp only [val_main_v1_apply, val_main_v0_apply, val_main_v3_apply, val_main_v2_apply, val_main_v4_apply,
    val_main_v5_apply, idx_channel0, idx_channel1, idx_weight0, idx_weight1, Ideal.addf_def, Ideal.subf_def]
  rfl

end Cert.ReferenceIdeal.RefValue

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.BlockProduct.lean ====
/-
  What the kernel body computes from one pair of blocks.

  The body loads a 512 × 4098 block `A` of the flattened input and the whole 1024 × 4098 weight matrix `B`, and
  stores the matrix product `A · Bᵀ` accumulated into zeros. Changing the number format of `A` is the identity on the
  ideal values and the shape casts are between equal shapes, so entry `(p, q)` of the stored block is
  `Σ_k A[p, k] · B[q, k]`, `k` over the 4098 positions of the long axis.
-/
import proofs.«114108_j86904368267649_2_alg».proof.Proof.Gen.KernelIdeal.Skeleton
import proofs.«114108_j86904368267649_2_alg».proof.Proof.LibMatmulT
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- The stored block at `(p, q)` is the sum over the long axis of the products of row `p` of the input block and
    row `q` of the weight matrix. -/
theorem product_apply (A : Vec Ideal S512x4098 .f32) (B : Vec Ideal S1024x4098 .bf16) (p : Fin 512) (q : Fin 1024) :
    k0_pay1 (F := Ideal) A B (ix2 p q) = ∑ k : Fin 4098, A (ix2 p k) * B (ix2 q k) := by
  unfold k0_pay1
  simp only [shapeCast_self]
  exact MatmulT.matmul_zero_apply (M := 512) (K := 4098) (N := 1024)
    dot_S512x4098_S1024x4098_S512x1024_1_1_0_0_n_n_wf none _ _ p q

/-- The same at any index of the block, by its two coordinates. -/
theorem product_at (A : Vec Ideal S512x4098 .f32) (B : Vec Ideal S1024x4098 .bf16) (j : S512x1024.Idx) :
    k0_pay1 (F := Ideal) A B j = ∑ k : Fin 4098, A (ix2 (j 0) k) * B (ix2 (j 1) k) := by
  exact (congrArg (k0_pay1 (F := Ideal) A B) (eq_ix2 j)).trans (product_apply A B (j 0) (j 1))

end Cert.KernelIdeal.Block

end
-- ==== Proof.HostOperands.lean ====
/-
  The two arrays the kernel's blocks are cut from, as functions of the arguments.

  Before the kernel runs, the host reshapes `x` from [16384, 2, 2049] to [16384, 4098] and concatenates `r + s` and
  `r - s` along their second axis into a [1024, 4098] matrix (whose change of number format is the identity on the
  ideal values). Row-major order makes the reshape put channel 0 of a row in columns 0 … 2048 and channel 1 in columns
  2049 … 4097: `(b · 2 + c) · 2049 + f = b · 4098 + (c · 2049 + f)`. The concatenation puts `r + s` in columns
  0 … 2048 and `r - s` in columns 2049 … 4097.
-/
import proofs.«114108_j86904368267649_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The three argument arrays on core `c`, as launched. -/
abbrev argX (c : Dev nD) : FVec Ideal S16384x2x2049 .f32 := m ((c : Thread nD τ).loc main_arg0)
abbrev argR (c : Dev nD) : FVec Ideal S1024x2049 .f32 := m ((c : Thread nD τ).loc main_arg1)
abbrev argS (c : Dev nD) : FVec Ideal S1024x2049 .f32 := m ((c : Thread nD τ).loc main_arg2)

/-- The flattened input, as the kernel finds it: the reshape of `x`. -/
theorem flat_eq (c : Dev nD) :
    (V m c main_v0 : S16384x4098.Idx → EReal) = shapeCast S16384x4098 (argX m c) shapeCasts_S16384x2x2049_S16384x4098 := by
  dsimp only [Gen.V, Gen.hostOps0]; after_results <;> rfl

/-- The weight matrix, as the kernel finds it: `r + s` and `r - s` side by side. -/
theorem weights_eq (c : Dev nD) :
    (V m c main_v4 : S1024x4098.Idx → EReal)
      = truncf .bf16 (concatenate S1024x4098 1 [⟨S1024x2049, addf (argR m c) (argS m c)⟩, ⟨S1024x2049, subf (argR m c) (argS m c)⟩]
          concatenates_S1024x2049_S1024x2049_S1024x4098_d1) bitsLt_bf16_f32 := by
  dsimp only [Gen.V, Gen.hostOps0]; after_results <;> rfl

/-- Columns 0 … 2048 of the flattened input are channel 0. -/
theorem flat_channel0 (c : Dev nD) (b : Fin 16384) (k : Fin 4098) (f : Fin 2049) (hk : k.val = f.val) :
    (V m c main_v0 : S16384x4098.Idx → EReal) (ix2 b k) = argX m c (ix3 b 0 f) := by
  rw [flat_eq]
  exact shapeCast_apply _ shapeCasts_S16384x2x2049_S16384x4098 (ix2 b k) (ix3 b 0 f) (by
    rw [Shape.rowMajor_val_three, Shape.rowMajor_val_two]
    show (b.val * 2 + 0) * 2049 + f.val = b.val * 4098 + k.val
    omega)

/-- Columns 2049 … 4097 of the flattened input are channel 1. -/
theorem flat_channel1 (c : Dev nD) (b : Fin 16384) (k : Fin 4098) (f : Fin 2049) (hk : k.val = 2049 + f.val) :
    (V m c main_v0 : S16384x4098.Idx → EReal) (ix2 b k) = argX m c (ix3 b 1 f) := by
  rw [flat_eq]
  exact shapeCast_apply _ shapeCasts_S16384x2x2049_S16384x4098 (ix2 b k) (ix3 b 1 f) (by
    rw [Shape.rowMajor_val_three, Shape.rowMajor_val_two]
    show (b.val * 2 + 1) * 2049 + f.val = b.val * 4098 + k.val
    omega)

/-- Columns 0 … 2048 of the weight matrix are `r + s`. -/
theorem weights_sum (c : Dev nD) (o : Fin 1024) (k : Fin 4098) (f : Fin 2049) (hk : k.val = f.val) :
    (V m c main_v4 : S1024x4098.Idx → EReal) (ix2 o k) = argR m c (ix2 o f) + argS m c (ix2 o f) := by
  rw [weights_eq]
  exact concatenate_pair_apply_left (1 : Fin 2) (addf (argR m c) (argS m c)) (subf (argR m c) (argS m c))
    concatenates_S1024x2049_S1024x2049_S1024x4098_d1 (ix2 o k) rfl (ix2 o f) (fun a => by
      match a with
      | ⟨0, _⟩ => rfl
      | ⟨1, _⟩ => exact hk.symm)

/-- Columns 2049 … 4097 of the weight matrix are `r - s`. -/
theorem weights_diff (c : Dev nD) (o : Fin 1024) (k : Fin 4098) (f : Fin 2049) (hk : k.val = 2049 + f.val) :
    (V m c main_v4 : S1024x4098.Idx → EReal) (ix2 o k) = argR m c (ix2 o f) - argS m c (ix2 o f) := by
  rw [weights_eq]
  exact concatenate_pair_apply_right (1 : Fin 2) (addf (argR m c) (argS m c)) (subf (argR m c) (argS m c))
    concatenates_S1024x2049_S1024x2049_S1024x4098_d1 (ix2 o k) rfl rfl (ix2 o f)
    (fun a => by
      match a with
      | ⟨0, _⟩ => intro _; rfl
      | ⟨1, _⟩ => intro hne; exact absurd rfl hne)
    (by show f.val + 2049 = k.val; omega)

end Cert.KernelIdeal.Operands

end
-- ==== Proof.KernelEnergies.lean ====
/-
  The kernel's result array is `energies` of its arguments.

  The grid has 32 points. Point `t` reads rows `512·t … 512·t + 511` of the flattened input (all 4098 columns) and
  the whole weight matrix, and writes rows `512·t … 512·t + 511` of the result (all 1024 columns). By the body's
  product, entry `(p, q)` of what point `t` writes is the long sum `Σ_k X[512·t + p, k] · W[q, k]`, which the law of
  the two halves turns into `energies` at `(512·t + p, q)`: every point writes its block of ONE whole-array
  function. Row `b` of the result lies in the block of point `b / 512`, so the 32 blocks cover the array and the
  array ends holding that function everywhere.
-/
import proofs.«114108_j86904368267649_2_alg».proof.Proof.Gen.KernelIdeal.Value
import proofs.«114108_j86904368267649_2_alg».proof.Proof.HalvesSum
import proofs.«114108_j86904368267649_2_alg».proof.Proof.BlockProduct
import proofs.«114108_j86904368267649_2_alg».proof.Proof.HostOperands

noncomputable section

namespace Cert.KernelIdeal.KernelValue

open Cert.KernelIdeal Cert.KernelIdeal.Gen Cert.KernelIdeal.Value Cert.KernelIdeal.Operands
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The block indices at the 32 grid points: the input block and the output block of point `t` are block row `t`,
    block column 0; the weight matrix is the one block `(0, 0)` at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result array, as a function of the argument arrays on core `c`. -/
abbrev result (c : Dev nD) : FVec Ideal S16384x1024 .f32 := Cert.Energies.energies (argX m c) (argR m c) (argS m c)

/-- Entry `y` of the input block at point `t` is the flattened input at row `512·t + y₀`, column `y₁`. -/
theorem input_block_apply (c : Dev nD) (t : Fin cfg0.N) (y : S512x4098.Idx) (i : S16384x4098.Idx)
    (h0 : (i 0).val = t.val * 512 + (y 0).val) (h1 : (i 1).val = (y 1).val) :
    (iblk m c 0 t : Vec Ideal S512x4098 .f32) y = (V m c main_v0 : S16384x4098.Idx → EReal) i := by
  obtain ⟨e0, e1, -, -, -, -⟩ := index_facts t
  unfold iblk
  rw [View.read_apply]
  show V m c main_v0 _ = V m c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 4098 + 1 * (y 1).val = (i 1).val; omega

/-- The weight block at every point is the whole weight matrix. -/
theorem weight_block_apply (c : Dev nD) (t : Fin cfg0.N) (y : S1024x4098.Idx) :
    (iblk m c 1 t : Vec Ideal S1024x4098 .bf16) y = (V m c main_v4 : S1024x4098.Idx → EReal) y := by
  obtain ⟨-, -, e2, e3, -, -⟩ := index_facts t
  unfold iblk
  rw [View.read_apply]
  show V m c main_v4 _ = V m c main_v4 _
  congr 1
  funext a
  apply Fin.ext
  match a with
  | ⟨0, _⟩ => show win0_1.index t (0 : Fin 2) * 1024 + 1 * (y 0).val = (y 0).val; omega
  | ⟨1, _⟩ => show win0_1.index t (1 : Fin 2) * 4098 + 1 * (y 1).val = (y 1).val; omega

/-- WHAT POINT `t` WRITES BACK is block `t` of `result`. -/
theorem flushed_eq (c : Dev nD) (t : Fin cfg0.N) :
    (dats m 0 c).flushed 2 t = ((cfg0.win 2).blk t).view.read (Elt Ideal) (result m c) := by
  rw [flushed2 m c t]
  unfold out0_2
  rw [View.canon_unit_zero origin]
  simp only [View.ld_unit_zero (S := S512x4098) origin, View.ld_unit_zero (S := S1024x4098) origin]
  obtain ⟨-, -, -, -, e4, e5⟩ := index_facts t
  funext j
  show k0_pay1 (iblk m c 0 t) (iblk m c 1 t) j = result m c (((cfg0.win 2).blk t).view.emb j)
  refine (Block.product_at (iblk m c 0 t) (iblk m c 1 t) j).trans ?_
  refine Eq.trans ?_ (Cert.Energies.long_sum_eq (argX m c) (argR m c) (argS m c) (V m c main_v0) (V m c main_v4)
    (flat_channel0 m c) (flat_channel1 m c) (weights_sum m c) (weights_diff m c) (((cfg0.win 2).blk t).view.emb j))
  refine Finset.sum_congr rfl fun k _ => ?_
  refine congrArg₂ (· * ·) ?_ ?_
  · refine input_block_apply m c t (ix2 (j 0) k) _ ?_ rfl
    show win0_2.index t (0 : Fin 2) * 512 + 1 * (j 0).val = t.val * 512 + (j 0).val
    omega
  · refine (weight_block_apply m c t (ix2 (j 1) k)).trans (congrArg _ ?_)
    funext a
    apply Fin.ext
    match a with
    | ⟨0, _⟩ => show (j 1).val = win0_2.index t (1 : Fin 2) * 1024 + 1 * (j 1).val; omega
    | ⟨1, _⟩ => rfl

/-- An index of the result array is in point `t`'s block iff each coordinate is in the block's range on its axis. -/
theorem mem_block (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v5).slice (win0_2.rect t)).set ↔ _
  rw [View.set_slice_whole, Rect.mem_set_unit]
  exact Iff.rfl

/-- THE COVER: row `b` of the result lies in the block of point `b / 512`. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- THE ARRAY after the run is `result`. -/
theorem final (c : Dev nD) : (dats m 0 c).arrAt 2 cfg0.N = result m c :=
  (dats m 0 c).arrAt_eq_of_cover 2 (result m c) (fun t _ => flushed_eq m c t) covered

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.lean ====
/-
  The kernel and its reference compute the same array on the extended reals.

  Both take `x` of shape [16384, 2, 2049] and two weight matrices `r`, `s` of shape [1024, 2049], and return
    E[b, o] = Σ_f x[b, 0, f] · (r[o, f] + s[o, f])  +  Σ_f x[b, 1, f] · (r[o, f] - s[o, f]).
  The reference computes the two matrix products as written and adds them (RefEnergies). The kernel flattens the two
  channels of `x` into one axis of length 4098, concatenates `r + s` and `r - s` along that axis (HostOperands), and
  multiplies 512-row blocks of the one by the transpose of the other (BlockProduct); a sum over 4098 = 2049 + 2049
  positions is the sum over the first half plus the sum over the second half (HalvesSum), so every block the kernel
  writes is a block of `E`, and the 32 blocks cover the array (KernelEnergies). Only the commutativity and
  associativity of addition are used: the equality holds for every input, and the finiteness precondition is not
  opened. The kernel's program was printed unchanged for the ideal reading, so there is nothing to preserve.
-/
import proofs.«114108_j86904368267649_2_alg».proof.Defs
import proofs.«114108_j86904368267649_2_alg».proof.Proof.Gen.Kernel
import proofs.«114108_j86904368267649_2_alg».proof.Proof.Gen.Kernel.Skeleton
import proofs.«114108_j86904368267649_2_alg».proof.Proof.Gen.Kernel.Launch
import proofs.«114108_j86904368267649_2_alg».proof.Proof.Gen.Kernel.Points
import proofs.«114108_j86904368267649_2_alg».proof.Proof.Gen.Kernel.Frame
import proofs.«114108_j86904368267649_2_alg».proof.Proof.Gen.KernelIdeal
import proofs.«114108_j86904368267649_2_alg».proof.Proof.Gen.KernelIdeal.Skeleton
import proofs.«114108_j86904368267649_2_alg».proof.Proof.Gen.KernelIdeal.Launch
import proofs.«114108_j86904368267649_2_alg».proof.Proof.Gen.KernelIdeal.Points
import proofs.«114108_j86904368267649_2_alg».proof.Proof.Gen.KernelIdeal.Frame
import proofs.«114108_j86904368267649_2_alg».proof.Proof.Gen.ReferenceIdeal
import proofs.«114108_j86904368267649_2_alg».proof.Proof.Gen.Pre_finite_inputs
import proofs.«114108_j86904368267649_2_alg».proof.Proof.Gen.KernelIdeal.Value
import proofs.«114108_j86904368267649_2_alg».proof.Proof.Gen.ReferenceIdeal.Run
import proofs.«114108_j86904368267649_2_alg».proof.Proof.Gen.ReferenceIdeal.Read
import proofs.«114108_j86904368267649_2_alg».proof.Proof.RefEnergies
import proofs.«114108_j86904368267649_2_alg».proof.Proof.KernelEnergies
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference terminates without a fault and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments, the kernel's result array ends at `energies` of its arguments and the
    reference's at `energies` of its own, which are the same arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
